-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S64x4 : Shape := ⟨2, ![64, 4]⟩
abbrev S4 : Shape := ⟨1, ![4]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S8x256x256x64 .f32) (main_arg1 : FVec F S64x4 .f32) (main_arg2 : FVec F S4 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S8x256x256x64 : Shape := ⟨4, ![8, 256, 256, 64]⟩
abbrev S64x4 : Shape := ⟨2, ![64, 4]⟩
abbrev S4 : Shape := ⟨1, ![4]⟩
abbrev S524288x64 : Shape := ⟨2, ![524288, 64]⟩
abbrev S262144x128 : Shape := ⟨2, ![262144, 128]⟩
abbrev S_ : Shape := ⟨0, ![]⟩
abbrev S64x8 : Shape := ⟨2, ![64, 8]⟩
abbrev S128x8 : Shape := ⟨2, ![128, 8]⟩
abbrev S8 : Shape := ⟨1, ![8]⟩
abbrev S1x8 : Shape := ⟨2, ![1, 8]⟩
abbrev S8192x128 : Shape := ⟨2, ![8192, 128]⟩
abbrev S8192x8 : Shape := ⟨2, ![8192, 8]⟩
abbrev S8192x4 : Shape := ⟨2, ![8192, 4]⟩
abbrev S8192 : Shape := ⟨1, ![8192]⟩
abbrev S8192x1 : Shape := ⟨2, ![8192, 1]⟩

abbrev nBuf : Space → Nat
  | .hbm => 16
  | .vmem => 6
  | .smem => 0
  | _ => 0

abbrev bufTy : (tb : Table) → Fin (tcTables nBuf tb) → BufTy
  | .hbm, ⟨0, _⟩ => ⟨S8x256x256x64, .f32⟩
  | .hbm, ⟨1, _⟩ => ⟨S64x4, .f32⟩
  | .hbm, ⟨2, _⟩ => ⟨S4, .f32⟩
  | .hbm, ⟨3, _⟩ => ⟨S524288x64, .f32⟩
  | .hbm, ⟨4, _⟩ => ⟨S262144x128, .f32⟩
  | .hbm, ⟨5, _⟩ => ⟨S_, .f32⟩
  | .hbm, ⟨6, _⟩ => ⟨S64x4, .f32⟩
  | .hbm, ⟨7, _⟩ => ⟨S64x8, .f32⟩
  | .hbm, ⟨8, _⟩ => ⟨S64x8, .f32⟩
  | .hbm, ⟨9, _⟩ => ⟨S128x8, .f32⟩
  | .hbm, ⟨10, _⟩ => ⟨S128x8, .bf16⟩
  | .hbm, ⟨11, _⟩ => ⟨S8, .f32⟩
  | .hbm, ⟨12, _⟩ => ⟨S1x8, .f32⟩
  | .hbm, ⟨13, _⟩ => ⟨S262144x128, .f32⟩
  | .hbm, ⟨14, _⟩ => ⟨S524288x64, .f32⟩
  | .hbm, ⟨15, _⟩ => ⟨S8x256x256x64, .f32⟩
  | .local _ .vmem, ⟨0, _⟩ => ⟨S8192x128, .f32⟩
  | .local _ .vmem, ⟨1, _⟩ => ⟨S8192x128, .f32⟩
  | .local _ .vmem, ⟨2, _⟩ => ⟨S128x8, .bf16⟩
  | .local _ .vmem, ⟨3, _⟩ => ⟨S1x8, .f32⟩
  | .local _ .vmem, ⟨4, _⟩ => ⟨S8192x128, .f32⟩
  | .local _ .vmem, ⟨5, _⟩ => ⟨S8192x128, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x256x256x64_S524288x64 : S8x256x256x64.ShapeCasts S524288x64
  shapeCasts_S524288x64_S262144x128 : S524288x64.ShapeCasts S262144x128
  bcast_S_S64x4 : S_.BroadcastsInDim S64x4 (![] : Fin 0 → Fin S64x4.rank)
  concatenates_S64x4_S64x4_S64x8_d1 : Shape.Concatenates [S64x4, S64x4] S64x8 1
  concatenates_S64x8_S64x8_S128x8_d0 : Shape.Concatenates [S64x8, S64x8] S128x8 0
  bitsLt_bf16_f32 : FTy.bits .bf16 < FTy.bits .f32
  concatenates_S4_S4_S8_d0 : Shape.Concatenates [S4, S4] S8 0
  shapeCasts_S8_S1x8 : S8.ShapeCasts S1x8
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  slices_S8192x8_o0_0_S8192x4 : S8192x8.Slices ![0, 0] S8192x4
  reduces_S8192x4_S8192 : S8192x4.Reduces [1] S8192
  shapeCasts_S8192_S8192x1 : S8192.ShapeCasts S8192x1
  slices_S8192x8_o0_4_S8192x4 : S8192x8.Slices ![0, 4] S8192x4
  iota_S8192x128_d1_w32 : S8192x128.Iotas .tc 32 [1]
  shapeCasts_S8192x1_S8192x1 : S8192x1.ShapeCasts S8192x1
  broadcasts_S8192x1_S8192x128 : S8192x1.Broadcasts S8192x128
  shapeCasts_S262144x128_S524288x64 : S262144x128.ShapeCasts S524288x64
  shapeCasts_S524288x64_S8x256x256x64 : S524288x64.ShapeCasts S8x256x256x64
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .bf16 = 32 ∨ (Rect.block (s := S128x8) S128x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_v1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S64x4 : Shape := ⟨2, ![64, 4]⟩
abbrev S4 : Shape := ⟨1, ![4]⟩
abbrev S8x256x256x4 : Shape := ⟨4, ![8, 256, 256, 4]⟩
abbrev S1x1x1x4 : Shape := ⟨4, ![1, 1, 1, 4]⟩
abbrev S_ : Shape := ⟨0, ![]⟩
abbrev S8x256x256 : Shape := ⟨3, ![8, 256, 256]⟩
abbrev S8x256x256x1 : Shape := ⟨4, ![8, 256, 256, 1]⟩

abbrev nBuf : Space → Nat
  | .hbm => 14
  | .vmem => 0
  | .smem => 0
  | _ => 0

abbrev bufTy : (tb : Table) → Fin (tcTables nBuf tb) → BufTy
  | .hbm, ⟨0, _⟩ => ⟨S8x256x256x64, .f32⟩
  | .hbm, ⟨1, _⟩ => ⟨S64x4, .f32⟩
  | .hbm, ⟨2, _⟩ => ⟨S4, .f32⟩
  | .hbm, ⟨3, _⟩ => ⟨S8x256x256x4, .f32⟩
  | .hbm, ⟨4, _⟩ => ⟨S1x1x1x4, .f32⟩
  | .hbm, ⟨5, _⟩ => ⟨S8x256x256x4, .f32⟩
  | .hbm, ⟨6, _⟩ => ⟨S8x256x256x4, .f32⟩
  | .hbm, ⟨7, _⟩ => ⟨S_, .f32⟩
  | .hbm, ⟨8, _⟩ => ⟨S8x256x256x4, .f32⟩
  | .hbm, ⟨9, _⟩ => ⟨S8x256x256x4, .f32⟩
  | .hbm, ⟨10, _⟩ => ⟨S_, .f32⟩
  | .hbm, ⟨11, _⟩ => ⟨S8x256x256, .f32⟩
  | .hbm, ⟨12, _⟩ => ⟨S8x256x256x1, .f32⟩
  | .hbm, ⟨13, _⟩ => ⟨S8x256x256x64, .f32⟩
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S4_S1x1x1x4_3 : S4.BroadcastsInDim S1x1x1x4 (![3] : Fin 1 → Fin S1x1x1x4.rank)
  bcast_S1x1x1x4_S8x256x256x4_0_1_2_3 : S1x1x1x4.BroadcastsInDim S8x256x256x4 (![0, 1, 2, 3] : Fin 4 → Fin S8x256x256x4.rank)
  bcast_S_S8x256x256x4 : S_.BroadcastsInDim S8x256x256x4 (![] : Fin 0 → Fin S8x256x256x4.rank)
  reducesTo_S8x256x256x4_S8x256x256_d3 : S8x256x256x4.ReducesTo [3] S8x256x256
  h_S_ : 0 < S_.numel
  bcast_S8x256x256_S8x256x256x1_0_1_2 : S8x256x256.BroadcastsInDim S8x256x256x1 (![0, 1, 2] : Fin 3 → Fin S8x256x256x1.rank)
  bcast_S8x256x256x1_S8x256x256x64_0_1_2_3 : S8x256x256x1.BroadcastsInDim S8x256x256x64 (![0, 1, 2, 3] : Fin 4 → Fin S8x256x256x64.rank)
  dot_S8x256x256x64_S64x4_S8x256x256x4_3_0_012_1_n_n_wf : DotDims.WF S8x256x256x64 S64x4 S8x256x256x4 [3] [0] [0, 1, 2] [1] [] []

variable [Facts₀]

def dot_S8x256x256x64_S64x4_S8x256x256x4_3_0_012_1_n_n : DotDims S8x256x256x64 S64x4 S8x256x256x4 where
  lhsContracting := [3]
  rhsContracting := [0]
  lhsNonContracting := [0, 1, 2]
  rhsNonContracting := [1]
  lhsBatch := []
  rhsBatch := []
  wf := dot_S8x256x256x64_S64x4_S8x256x256x4_3_0_012_1_n_n_wf

class Facts : Prop extends Facts₀ where

variable [Facts]
-- ==== Proof.MaxoutSpec.lean ====
/-
  The mathematics of the layer, free of any program.

  A 1×1 convolution with four filters, a rectifier, and the largest of the four responses: for a 64-vector v,
      maxout v = max over f of max (Σ_k v k · W (k, f) + b f, 0),
  the maximum taken from −∞. The layer's result at (n, h, w, c) is maxout of the 64-vector x (n, h, w, ·), the same
  for every channel c: `G`.

  The kernel computes this on PACKED rows. A packed row of 128 entries holds two consecutive 64-vectors side by
  side; it is multiplied by a 128 × 8 matrix that is block diagonal, W in the upper left and in the lower right
  corner and zero elsewhere, and an 8-vector (b, b) is added. Columns 0…3 of the product then see only the first
  64-vector and columns 4…7 only the second: the other half of the row meets zeros, and on the extended reals
  v · 0 = 0 for every v, infinite ones included, so those 64 terms add nothing (`sum_low_half`, `sum_high_half`).
  Hence the maximum over columns 0…3 is maxout of the first vector and that over columns 4…7 maxout of the second
  (`packedHalf_low`, `packedHalf_high`). No finiteness of the inputs is used.
-/
import Idealize.ShloMosaic.PureOps.Ideal.Laws
import Idealize.ShloMosaic.Lib.ValueIdx

noncomputable section

namespace Cert.Maxout

open Idealize.ShloMosaic Idealize.ShloMosaic.ValueIdx

/-- Column `o + f` of an eight-column matrix: `o = 0` addresses the first four columns, `o = 4` the last four. -/
abbrev col (o : Nat) (ho : o + 4 ≤ 8) (f : Fin 4) : Fin 8 := ⟨o + f.val, by have := f.isLt; omega⟩

/-- Filter `f`'s rectified response to a 64-vector: max (Σ_k v k · W (k, f) + b f, 0). -/
def response (v : Fin 64 → EReal) (W : (⟨2, ![64, 4]⟩ : Shape).Idx → EReal) (b : (⟨1, ![4]⟩ : Shape).Idx → EReal)
    (f : Fin 4) : EReal :=
  max ((∑ k : Fin 64, v k * W (ix2 k f)) + b (ix1 f)) (Ideal.ofBits .f32 0x00000000#32)

/-- The layer on one 64-vector: the largest of the four rectified responses, from −∞. -/
def maxout (v : Fin 64 → EReal) (W : (⟨2, ![64, 4]⟩ : Shape).Idx → EReal) (b : (⟨1, ![4]⟩ : Shape).Idx → EReal) : EReal :=
  (Finset.univ : Finset (Fin 4)).fold max (Ideal.ofBits .f32 0xFF800000#32) (response v W b)

/-- The layer's result array: at (n, h, w, c) the maxout of x (n, h, w, ·), whatever the channel c. -/
def G (x : (⟨4, ![8, 256, 256, 64]⟩ : Shape).Idx → EReal) (W : (⟨2, ![64, 4]⟩ : Shape).Idx → EReal)
    (b : (⟨1, ![4]⟩ : Shape).Idx → EReal) : (⟨4, ![8, 256, 256, 64]⟩ : Shape).Idx → EReal :=
  fun i => maxout (fun k => x (ix4 (i 0) (i 1) (i 2) k)) W b

/-! ## Packed rows -/

/-- Column `o + f`'s rectified response to a packed 128-row against a 128 × 8 matrix and a 1 × 8 bias row. -/
def packedResponse (v : Fin 128 → EReal) (W2 : (⟨2, ![128, 8]⟩ : Shape).Idx → EReal)
    (b2 : (⟨2, ![1, 8]⟩ : Shape).Idx → EReal) (o : Nat) (ho : o + 4 ≤ 8) (f : Fin 4) : EReal :=
  max ((∑ k : Fin 128, v k * W2 (ix2 k (col o ho f))) + b2 (ix2 (0 : Fin 1) (col o ho f))) (Ideal.ofBits .f32 0x00000000#32)

/-- The largest of the four responses of columns `o … o + 3`, from −∞. -/
def packedHalf (v : Fin 128 → EReal) (W2 : (⟨2, ![128, 8]⟩ : Shape).Idx → EReal)
    (b2 : (⟨2, ![1, 8]⟩ : Shape).Idx → EReal) (o : Nat) (ho : o + 4 ≤ 8) : EReal :=
  (Finset.univ : Finset (Fin 4)).fold max (Ideal.ofBits .f32 0xFF800000#32) (packedResponse v W2 b2 o ho)

/-- What a packed result row holds at lane `q`: the first half's maximum on lanes 0…63, the second half's on 64…127. -/
def packedRow (v : Fin 128 → EReal) (W2 : (⟨2, ![128, 8]⟩ : Shape).Idx → EReal)
    (b2 : (⟨2, ![1, 8]⟩ : Shape).Idx → EReal) (q : Fin 128) : EReal :=
  if q.val < 64 then packedHalf v W2 b2 0 (by decide) else packedHalf v W2 b2 4 (by decide)

/-! ## The half of a packed row that meets zeros adds nothing -/

/-- A sum over 128 products whose right factors vanish on the upper 64 indices is the sum over the lower 64. -/
theorem sum_low_half (L R : Fin 128 → EReal) (g w : Fin 64 → EReal)
    (hL : ∀ k : Fin 64, L ⟨k.val, by have := k.isLt; omega⟩ = g k)
    (hR : ∀ k : Fin 64, R ⟨k.val, by have := k.isLt; omega⟩ = w k)
    (hz : ∀ k : Fin 64, R ⟨64 + k.val, by have := k.isLt; omega⟩ = 0) :
    ∑ k : Fin 128, L k * R k = ∑ k : Fin 64, g k * w k := by
  refine (Fin.sum_univ_add (a := 64) (b := 64) (fun k : Fin (64 + 64) => L k * R k)).trans ?_
  have h2 : ∑ i : Fin 64, L (Fin.natAdd 64 i) * R (Fin.natAdd 64 i) = 0 :=
    Finset.sum_eq_zero fun i _ => by
      rw [show R (Fin.natAdd 64 i) = 0 from hz i, mul_zero]
  rw [h2, add_zero]
  exact Finset.sum_congr rfl fun i _ => by
    rw [show L (Fin.castAdd 64 i) = g i from hL i, show R (Fin.castAdd 64 i) = w i from hR i]

/-- A sum over 128 products whose right factors vanish on the lower 64 indices is the sum over the upper 64. -/
theorem sum_high_half (L R : Fin 128 → EReal) (g w : Fin 64 → EReal)
    (hL : ∀ k : Fin 64, L ⟨64 + k.val, by have := k.isLt; omega⟩ = g k)
    (hR : ∀ k : Fin 64, R ⟨64 + k.val, by have := k.isLt; omega⟩ = w k)
    (hz : ∀ k : Fin 64, R ⟨k.val, by have := k.isLt; omega⟩ = 0) :
    ∑ k : Fin 128, L k * R k = ∑ k : Fin 64, g k * w k := by
  refine (Fin.sum_univ_add (a := 64) (b := 64) (fun k : Fin (64 + 64) => L k * R k)).trans ?_
  have h1 : ∑ i : Fin 64, L (Fin.castAdd 64 i) * R (Fin.castAdd 64 i) = 0 :=
    Finset.sum_eq_zero fun i _ => by
      rw [show R (Fin.castAdd 64 i) = 0 from hz i, mul_zero]
  rw [h1, zero_add]
  exact Finset.sum_congr rfl fun i _ => by
    rw [show L (Fin.natAdd 64 i) = g i from hL i, show R (Fin.natAdd 64 i) = w i from hR i]

/-- Columns 0…3 of the block-diagonal product see the first 64-vector of the packed row only. -/
theorem packedHalf_low (v : Fin 128 → EReal) (W2 : (⟨2, ![128, 8]⟩ : Shape).Idx → EReal)
    (b2 : (⟨2, ![1, 8]⟩ : Shape).Idx → EReal) (u : Fin 64 → EReal) (W : (⟨2, ![64, 4]⟩ : Shape).Idx → EReal)
    (b : (⟨1, ![4]⟩ : Shape).Idx → EReal)
    (hv : ∀ k : Fin 64, v ⟨k.val, by have := k.isLt; omega⟩ = u k)
    (hW : ∀ (k : Fin 64) (f : Fin 4), W2 (ix2 (⟨k.val, by have := k.isLt; omega⟩ : Fin 128) (col 0 (by decide) f)) = W (ix2 k f))
    (hZ : ∀ (k : Fin 64) (f : Fin 4), W2 (ix2 (⟨64 + k.val, by have := k.isLt; omega⟩ : Fin 128) (col 0 (by decide) f)) = 0)
    (hb : ∀ f : Fin 4, b2 (ix2 (0 : Fin 1) (col 0 (by decide) f)) = b (ix1 f)) :
    packedHalf v W2 b2 0 (by decide) = maxout u W b := by
  unfold packedHalf maxout
  refine congrArg (fun g => Finset.fold max (Ideal.ofBits .f32 0xFF800000#32) g (Finset.univ : Finset (Fin 4))) (funext fun f => ?_)
  unfold packedResponse response
  rw [sum_low_half v (fun k => W2 (ix2 k (col 0 (by decide) f))) u (fun k => W (ix2 k f)) hv (fun k => hW k f)
    (fun k => hZ k f), hb f]

/-- Columns 4…7 of the block-diagonal product see the second 64-vector of the packed row only. -/
theorem packedHalf_high (v : Fin 128 → EReal) (W2 : (⟨2, ![128, 8]⟩ : Shape).Idx → EReal)
    (b2 : (⟨2, ![1, 8]⟩ : Shape).Idx → EReal) (u : Fin 64 → EReal) (W : (⟨2, ![64, 4]⟩ : Shape).Idx → EReal)
    (b : (⟨1, ![4]⟩ : Shape).Idx → EReal)
    (hv : ∀ k : Fin 64, v ⟨64 + k.val, by have := k.isLt; omega⟩ = u k)
    (hW : ∀ (k : Fin 64) (f : Fin 4), W2 (ix2 (⟨64 + k.val, by have := k.isLt; omega⟩ : Fin 128) (col 4 (by decide) f)) = W (ix2 k f))
    (hZ : ∀ (k : Fin 64) (f : Fin 4), W2 (ix2 (⟨k.val, by have := k.isLt; omega⟩ : Fin 128) (col 4 (by decide) f)) = 0)
    (hb : ∀ f : Fin 4, b2 (ix2 (0 : Fin 1) (col 4 (by decide) f)) = b (ix1 f)) :
    packedHalf v W2 b2 4 (by decide) = maxout u W b := by
  unfold packedHalf maxout
  refine congrArg (fun g => Finset.fold max (Ideal.ofBits .f32 0xFF800000#32) g (Finset.univ : Finset (Fin 4))) (funext fun f => ?_)
  unfold packedResponse response
  rw [sum_high_half v (fun k => W2 (ix2 k (col 4 (by decide) f))) u (fun k => W (ix2 k f)) hv (fun k => hW k f)
    (fun k => hZ k f), hb f]

end Cert.Maxout

end
-- ==== Proof.ReferenceMaxout.lean ====
/-
  The reference computes the layer directly: a contraction of x (n, h, w, ·) with W's columns, the bias added, the
  rectifier, the maximum over the four filters from −∞, and the result repeated along the 64 channels. Read at an
  index (n, h, w, c), operation by operation, that is `Cert.Maxout.G` of the three arguments.
-/
import proofs.«106057_j35828617183845_2_alg».proof.Proof.Gen.ReferenceIdeal.Read
import proofs.«106057_j35828617183845_2_alg».proof.Proof.MaxoutSpec

noncomputable section

namespace Cert.ReferenceIdeal.RefValue

open Cert.ReferenceIdeal Cert.ReferenceIdeal.Gen Cert.ReferenceIdeal.Read
open Idealize.ShloMosaic Idealize.ShloMosaic.ValueIdx

/-- The reduction over the filter axis drops the last of four coordinates. -/
theorem reduces_filters : S8x256x256x4.Reduces [3] S8x256x256 := by decide

/-- Filter `f`'s entry of the rectified convolution at position (n, h, w) is the layer's response to x (n, h, w, ·). -/
theorem response_eq (x0 : (⟨S8x256x256x64, .f32⟩ : BufTy).Contents (Elt Ideal)) (x1 : (⟨S64x4, .f32⟩ : BufTy).Contents (Elt Ideal))
    (x2 : (⟨S4, .f32⟩ : BufTy).Contents (Elt Ideal)) (i : S8x256x256x64.Idx) (f : Fin 4) :
    val_main_v4 (F := Ideal) x0 x1 x2 (reduces_filters.lift (idx_main_v6 (idx_main_v7 i)) f)
      = Cert.Maxout.response (fun k => x0 (ix4 (i 0) (i 1) (i 2) k)) x1 x2 f := by
  have el : ∀ k : Fin 64, lidx_main_v0 (reduces_filters.lift (idx_main_v6 (idx_main_v7 i)) f) k = ix4 (i 0) (i 1) (i 2) k :=
    fun k => funext fun a => Fin.ext (by
      match a with
      | ⟨0, _⟩ => rfl
      | ⟨1, _⟩ => rfl
      | ⟨2, _⟩ => rfl
      | ⟨3, _⟩ => rfl)
  have er : ∀ k : Fin 64, ridx_main_v0 (reduces_filters.lift (idx_main_v6 (idx_main_v7 i)) f) k = ix2 k f :=
    fun k => funext fun a => Fin.ext (by
      match a with
      | ⟨0, _⟩ => rfl
      | ⟨1, _⟩ => rfl)
  have eb : idx_main_v1 (idx_main_v2 (reduces_filters.lift (idx_main_v6 (idx_main_v7 i)) f)) = ix1 f :=
    funext fun a => Fin.ext (by
      match a with
      | ⟨0, _⟩ => rfl)
  rw [val_main_v4_apply, val_main_v3_apply, val_main_v0_apply, val_main_v2_apply, val_main_v1_apply,
    val_main_call0_v0_apply, val_main_call0_cst_apply, eb]
  unfold Cert.Maxout.response
  simp only [el, er]
  rfl

/-- The reference's result, index by index, is the layer's `G` of its arguments. -/
theorem reference_eq (x0 : (⟨S8x256x256x64, .f32⟩ : BufTy).Contents (Elt Ideal)) (x1 : (⟨S64x4, .f32⟩ : BufTy).Contents (Elt Ideal))
    (x2 : (⟨S4, .f32⟩ : BufTy).Contents (Elt Ideal)) :
    val_main_v7 (F := Ideal) x0 x1 x2 = Cert.Maxout.G x0 x1 x2 := by
  funext i
  rw [val_main_v7_apply, val_main_v6_apply]
  unfold val_main_v5
  rw [Host.reduce_eq_fold_single FloatOps.maximumf _ _ reducesTo_S8x256x256x4_S8x256x256_d3 reduces_filters h_S_ _]
  unfold Cert.Maxout.G Cert.Maxout.maxout
  have hfun : (val_main_v4 (F := Ideal) x0 x1 x2 ∘ reduces_filters.lift (idx_main_v6 (idx_main_v7 i)))
      = Cert.Maxout.response (fun k => x0 (ix4 (i 0) (i 1) (i 2) k)) x1 x2 :=
    funext fun f => response_eq x0 x1 x2 i f
  rw [hfun]
  rfl

end Cert.ReferenceIdeal.RefValue

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KernelPayload.lean ====
/-
  What the kernel body stores, read at one entry. The body works on a block of 8192 packed rows: it multiplies the
  block by the 128 × 8 matrix into zeros, adds the 1 × 8 bias row to every row, rectifies, takes the largest of
  columns 0…3 and of columns 4…7 of every row, and writes the first maximum to lanes 0…63 and the second to lanes
  64…127 of the row. At (p, q) that is `Cert.Maxout.packedRow` of row p of the block.
-/
import proofs.«106057_j35828617183845_2_alg».proof.Proof.Gen.KernelIdeal.Skeleton
import proofs.«106057_j35828617183845_2_alg».proof.Proof.MaxoutSpec
import proofs.«106057_j35828617183845_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-- A lane number below 128, compared as a signed 32-bit word with 64, answers whether it is below 64. -/
theorem lane_lt : ∀ q : Fin 128, IntOp.cmpi .slt (BitVec.ofNat 32 q.val) 64#32 = if q.val < 64 then 1#1 else 0#1 := by
  decide +kernel

/-- A select on "lane < 64" takes its first operand on lanes 0…63 and its second on lanes 64…127. -/
theorem lane_select {α : Type} (hi : S8192x128.Iotas .tc 32 [1]) (a b : S8192x128.Idx → α) (p : Fin 8192) (q : Fin 128) :
    select (cmpi .slt (iota .tc S8192x128 32 [1] hi) (broadcast S8192x128 64#32)) a b (ix2 p q)
      = if q.val < 64 then a (ix2 p q) else b (ix2 p q) := by
  show Scalar.select (IntOp.cmpi .slt (iota .tc S8192x128 32 [1] hi (ix2 p q)) 64#32) (a (ix2 p q)) (b (ix2 p q)) = _
  rw [iota_single_apply]
  show Scalar.select (IntOp.cmpi .slt (BitVec.ofNat 32 q.val) 64#32) (a (ix2 p q)) (b (ix2 p q)) = _
  rw [lane_lt q]
  by_cases hq : q.val < 64
  · rw [if_pos hq, if_pos hq]; exact select_one _ _
  · rw [if_neg hq, if_neg hq]; exact select_zero _ _

/-- A vector of 8192 row values, viewed as a column and spread over the 128 lanes, holds row p's value at (p, q). -/
theorem column_spread {α : Type} (v : S8192.Idx → α) (h1 : S8192.ShapeCasts S8192x1) (h2 : S8192x1.ShapeCasts S8192x1)
    (h3 : S8192x1.Broadcasts S8192x128) (p : Fin 8192) (q : Fin 128) :
    broadcastTo S8192x128 (shapeCast S8192x1 (shapeCast S8192x1 v h1) h2) h3 (ix2 p q) = v (ix1 p) := by
  rw [shapeCast_self]
  refine (broadcastTo_apply _ h3 (ix2 p q) (ix2 p (0 : Fin 1)) (fun a => ?_)).trans ?_
  · match a with
    | ⟨0, _⟩ => show p.val = if (8192 : Nat) = 1 then 0 else p.val; rw [if_neg (by decide)]
    | ⟨1, _⟩ => show 0 = if (1 : Nat) = 1 then 0 else q.val; rw [if_pos rfl]
  · refine shapeCast_apply v h1 (ix2 p (0 : Fin 1)) (ix1 p) ?_
    rw [Shape.rowMajor_val_one, Shape.rowMajor_val_two]
    show p.val = p.val * 1 + 0
    omega

/-- The maximum over four adjacent columns `o … o + 3` of row p of an 8192 × 8 array, from −∞. -/
theorem row_max (u : FVec Ideal S8192x8 .f32) (off : Fin 2 → Nat) (o : Nat) (ho : o + 4 ≤ 8) (h0 : off 0 = 0) (h1 : off 1 = o)
    (hs : S8192x8.Slices off S8192x4) (hr : S8192x4.Reduces [1] S8192) (hφ : FKind.Formats .f32)
    (hacc : (0xFF800000#32 : BitVec 32) = FKind.maximumf.neutral .f32 hφ) (p : Fin 8192) :
    multiReduction .maximumf [1] S8192 (extractStridedSlice S8192x4 off u hs) 0xFF800000#32 hr hφ hacc (ix1 p)
      = (Finset.univ : Finset (Fin 4)).fold max (Ideal.ofBits .f32 0xFF800000#32) (fun f => u (ix2 p (Cert.Maxout.col o ho f))) := by
  refine (Ideal.multiReduction_maximumf_single _ _ hr hφ hacc (ix1 p)).trans ?_
  refine congrArg (fun g => Finset.fold max (Ideal.ofBits .f32 0xFF800000#32) g (Finset.univ : Finset (Fin 4))) (funext fun f => ?_)
  show extractStridedSlice S8192x4 off u hs (hr.lift (ix1 p) f) = _
  refine extractStridedSlice_apply off u hs _ _ (fun a => ?_)
  match a with
  | ⟨0, _⟩ => show p.val = off 0 + p.val; rw [h0]; omega
  | ⟨1, _⟩ => show o + f.val = off 1 + f.val; rw [h1]

/-- The rectified affine response at row p, column c: max (Σ_k x0 (p, k) · x1 (k, c) + x2 (0, c), 0). -/
theorem affine_apply (x0 : FVec Ideal S8192x128 .f32) (x1 : FVec Ideal S128x8 .bf16) (x2 : FVec Ideal S1x8 .f32)
    (h1 : S8192x128.ShapeCasts S8192x128) (hb : FTy.bits .bf16 < FTy.bits .f32) (h2 : S128x8.ShapeCasts S128x8)
    (h3 : S1x8.ShapeCasts S1x8) (h4 : S1x8.Broadcasts S8192x8) (p : Fin 8192) (c : Fin 8) :
    maximumf (addf (matmul dot_S8192x128_S128x8_S8192x8_1_0_0_1_n_n none (truncf .bf16 (shapeCast S8192x128 x0 h1) hb)
        (shapeCast S128x8 x1 h2) (constant S8192x8 .f32 0x00000000#32)) (broadcastTo S8192x8 (shapeCast S1x8 x2 h3) h4))
      (broadcast S8192x8 (Scalar.ofBits .f32 0x00000000#32)) (ix2 p c)
      = max ((∑ k : Fin 128, x0 (ix2 p k) * x1 (ix2 k c)) + x2 (ix2 (0 : Fin 1) c)) (Ideal.ofBits .f32 0x00000000#32) := by
  rw [shapeCast_self, shapeCast_self, shapeCast_self]
  show max (FloatOps.matmul (DotDims.plain 8192 128 8) none (truncf .bf16 x0 hb) x1 (constant ⟨2, ![8192, 8]⟩ .f32 0x00000000#32) (ix2 p c)
      + broadcastTo ⟨2, ![8192, 8]⟩ x2 h4 (ix2 p c)) (Ideal.ofBits .f32 0x00000000#32) = _
  rw [Cert.PlainMatmul.matmul_zero_apply 8192 128 8 none (truncf .bf16 x0 hb) x1 p c, broadcastTo_1b_ab_apply x2 h4 p c]
  rfl

/-- THE BODY'S STORED VALUE at (p, q): lanes 0…63 of row p hold the maximum of columns 0…3 of the row's rectified
    responses, lanes 64…127 that of columns 4…7. -/
theorem payload_apply (x0 : Vec Ideal S8192x128 .f32) (x1 : Vec Ideal S128x8 .bf16) (x2 : Vec Ideal S1x8 .f32)
    (p : Fin 8192) (q : Fin 128) :
    k0_pay1 (F := Ideal) x0 x1 x2 (ix2 p q) = Cert.Maxout.packedRow (fun k => x0 (ix2 p k)) x1 x2 q := by
  unfold k0_pay1
  refine (lane_select _ _ _ p q).trans ?_
  unfold Cert.Maxout.packedRow
  by_cases hq : q.val < 64
  · rw [if_pos hq, if_pos hq]
    refine (column_spread _ _ _ _ p q).trans ?_
    refine (row_max _ ![0, 0] 0 (by decide) rfl rfl _ _ _ _ p).trans ?_
    unfold Cert.Maxout.packedHalf
    refine congrArg (fun g => Finset.fold max (Ideal.ofBits .f32 0xFF800000#32) g (Finset.univ : Finset (Fin 4))) (funext fun f => ?_)
    exact affine_apply x0 x1 x2 _ _ _ _ _ p (Cert.Maxout.col 0 (by decide) f)
  · rw [if_neg hq, if_neg hq]
    refine (column_spread _ _ _ _ p q).trans ?_
    refine (row_max _ ![0, 4] 4 (by decide) rfl rfl _ _ _ _ p).trans ?_
    unfold Cert.Maxout.packedHalf
    refine congrArg (fun g => Finset.fold max (Ideal.ofBits .f32 0xFF800000#32) g (Finset.univ : Finset (Fin 4))) (funext fun f => ?_)
    exact affine_apply x0 x1 x2 _ _ _ _ _ p (Cert.Maxout.col 4 (by decide) f)

end Cert.KernelIdeal.Payload

end
-- ==== Proof.PackedBlocks.lean ====
/-
  From blocks to the array. Grid point t works on packed rows 8192·t … 8192·t + 8191: its input block is those rows
  of the packed array, the matrix and the bias row are whole at every point, and the block it writes back is those
  rows of the result. What a point writes is `Cert.Maxout.packedRow` of each of its rows, so the 32 blocks together
  are ONE function of the three launched arrays, `packedOut`; the blocks tile the 262144 rows, so the result array
  ends holding it everywhere.
-/
import proofs.«106057_j35828617183845_2_alg».proof.Proof.Gen.KernelIdeal.Frame
import proofs.«106057_j35828617183845_2_alg».proof.Proof.KernelPayload
import Idealize.ShloMosaic.Lib.Pipeline.Value

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

/-- The packed result as one function of the packed rows, the matrix and the bias row: at (J, q) the packed-row
    value of row J at lane q. -/
def packedOut (A1 : S262144x128.Idx → Elt Ideal .f32) (A6 : S128x8.Idx → Elt Ideal .bf16) (A8 : S1x8.Idx → Elt Ideal .f32) :
    S262144x128.Idx → Elt Ideal .f32 :=
  fun j => Cert.Maxout.packedRow (fun k => A1 (ix2 (j 0) k)) A6 A8 (j 1)

theorem packedOut_apply (A1 : S262144x128.Idx → Elt Ideal .f32) (A6 : S128x8.Idx → Elt Ideal .bf16) (A8 : S1x8.Idx → Elt Ideal .f32)
    (J : Fin 262144) (q : Fin 128) :
    packedOut A1 A6 A8 (ix2 J q) = Cert.Maxout.packedRow (fun k => A1 (ix2 J k)) A6 A8 q := rfl

/-- One entry of one point's block: if the point's input block holds row `i 0` of the packed rows in its row `y 0`,
    its other two blocks are the whole matrix and bias row, and `y` and `i` name the same lane, then what the body
    stores at `y` is the packed result at `i`. -/
theorem point_eq (x0 : Vec Ideal S8192x128 .f32) (x1 : Vec Ideal S128x8 .bf16) (x2 : Vec Ideal S1x8 .f32)
    (A1 : S262144x128.Idx → Elt Ideal .f32) (A6 : S128x8.Idx → Elt Ideal .bf16) (A8 : S1x8.Idx → Elt Ideal .f32)
    (y : S8192x128.Idx) (i : S262144x128.Idx)
    (h0 : ∀ k : Fin 128, x0 (ix2 (y 0) k) = A1 (ix2 (i 0) k)) (h1 : x1 = A6) (h2 : x2 = A8) (hq : (i 1).val = (y 1).val) :
    k0_pay1 (F := Ideal) x0 x1 x2 y = packedOut A1 A6 A8 i := by
  obtain ⟨p, q, rfl⟩ : ∃ (p : Fin 8192) (q : Fin 128), y = ix2 p q := ⟨y 0, y 1, eq_ix2 y⟩
  obtain ⟨J, q', rfl⟩ : ∃ (J : Fin 262144) (q' : Fin 128), i = ix2 J q' := ⟨i 0, i 1, eq_ix2 i⟩
  obtain rfl : q' = q := Fin.ext hq
  subst h1 h2
  rw [Cert.KernelIdeal.Payload.payload_apply, packedOut_apply]
  have hrow : (fun k : Fin 128 => x0 (ix2 p k)) = (fun k : Fin 128 => A1 (ix2 J k)) := funext h0
  rw [hrow]

variable (m : (ℓ : Loc nD τ sig) → Buf (Elt Ideal) ℓ)

theorem hz : (![0, 0] : Fin 2 → Nat) = fun _ => 0 := funext fun a => by fin_cases a <;> rfl

/-- The printed index maps, decided over the grid: the input's and the output's block index at point t is (t, 0), the
    matrix's and the bias row's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the packed result of the arrays as the region finds them. -/
theorem flushed_eq (c : Dev nD) (t : Fin cfg0.N) :
    (dats m 0 c).flushed 3 t
      = ((cfg0.win 3).blk t).view.read (Elt Ideal) (packedOut (V m c main_v1) (V m c main_v6) (V m c main_v8)) := by
  show (cfg0.win 3).cut (grid0.coords t) ((dats m 0 c).after 3 t) = _
  rw [after0_3]
  unfold out0_3
  rw [View.canon_unit_zero hz]
  simp only [View.ld_unit_zero (S := S8192x128) hz, View.ld_unit_zero (S := S128x8) hz, View.ld_unit_zero (S := S1x8) hz]
  obtain ⟨e0, e1, e2, e3, e4, e5, e6, e7⟩ := idx_facts t
  funext y
  show k0_pay1 (F := Ideal) (iblk m c 0 t) (iblk m c 1 t) (iblk m c 2 t) y
    = packedOut (V m c main_v1) (V m c main_v6) (V m c main_v8) (((cfg0.win 3).blk t).view.emb y)
  refine point_eq (iblk m c 0 t) (iblk m c 1 t) (iblk m c 2 t) (V m c main_v1) (V m c main_v6) (V m c main_v8) y
    (((cfg0.win 3).blk t).view.emb y) (fun k => ?_) (funext fun z => ?_) (funext fun z => ?_) ?_
  · show V m c main_v1 (((cfg0.win 0).blk t).view.emb (ix2 (y 0) k)) = V m c main_v1 (ix2 ((((cfg0.win 3).blk t).view.emb y) 0) k)
    refine congrArg (V m c main_v1) (funext fun a => Fin.ext ?_)
    match a with
    | ⟨0, _⟩ =>
      show win0_0.index t (0 : Fin 2) * 8192 + 1 * (y 0).val = win0_3.index t (0 : Fin 2) * 8192 + 1 * (y 0).val
      omega
    | ⟨1, _⟩ =>
      show win0_0.index t (1 : Fin 2) * 128 + 1 * k.val = k.val
      omega
  · show V m c main_v6 (((cfg0.win 1).blk t).view.emb z) = V m c main_v6 z
    refine congrArg (V m c main_v6) (funext fun a => Fin.ext ?_)
    match a with
    | ⟨0, _⟩ => show win0_1.index t (0 : Fin 2) * 128 + 1 * (z 0).val = (z 0).val; omega
    | ⟨1, _⟩ => show win0_1.index t (1 : Fin 2) * 8 + 1 * (z 1).val = (z 1).val; omega
  · show V m c main_v8 (((cfg0.win 2).blk t).view.emb z) = V m c main_v8 z
    refine congrArg (V m c main_v8) (funext fun a => Fin.ext ?_)
    match a with
    | ⟨0, _⟩ => show win0_2.index t (0 : Fin 2) * 1 + 1 * (z 0).val = (z 0).val; omega
    | ⟨1, _⟩ => show win0_2.index t (1 : Fin 2) * 8 + 1 * (z 1).val = (z 1).val; omega
  · show win0_3.index t (1 : Fin 2) * 128 + 1 * (y 1).val = (y 1).val
    omega

/-- An index of the array is in point t's block iff each coordinate is in the block's range on its axis. -/
theorem mem_blk (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v9).slice (win0_3.rect t)).set ↔ _
  rw [View.set_slice_whole, Rect.mem_set_unit]
  exact Iff.rfl

/-- Every row of the array lies in the block of the point its number divided by 8192 names. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 32 := N_0
  refine ⟨⟨(i 0).val / 8192, by rw [hN]; omega⟩, flush0_3 _, ?_⟩
  rw [mem_blk]
  obtain ⟨e0, e1, e2, e3, e4, e5, e6, e7⟩ := idx_facts ⟨(i 0).val / 8192, by rw [hN]; omega⟩
  intro a
  match a with
  | ⟨0, _⟩ =>
    show win0_3.index _ (0 : Fin 2) * 8192 ≤ (i 0).val ∧ (i 0).val < win0_3.index _ (0 : Fin 2) * 8192 + 8192
    rw [e6]
    show (i 0).val / 8192 * 8192 ≤ (i 0).val ∧ (i 0).val < (i 0).val / 8192 * 8192 + 8192
    omega
  | ⟨1, _⟩ =>
    show win0_3.index _ (1 : Fin 2) * 128 ≤ (i 1).val ∧ (i 1).val < win0_3.index _ (1 : Fin 2) * 128 + 128
    rw [e7]
    omega

/-- THE RESULT ARRAY after the region: the packed result of the arrays as the region finds them. -/
theorem final (c : Dev nD) :
    (dats m 0 c).arrAt 3 cfg0.N = packedOut (V m c main_v1) (V m c main_v6) (V m c main_v8) :=
  (dats m 0 c).arrAt_eq_of_cover 3 (packedOut (V m c main_v1) (V m c main_v6) (V m c main_v8))
    (fun t _ => flushed_eq m c t) cover

end Cert.KernelIdeal.Blocks

end
-- ==== Proof.PackedLayout.lean ====
/-
  The three arrays the kernel is launched on, read at an entry.

  * The input, flattened to 524288 rows of 64 and then viewed as 262144 rows of 128: entry (J, k) of the packed
    array is the input's entry at the same row-major position, J · 128 + k.
  * The 128 × 8 matrix assembled from W and a zero matrix Z: (W | Z) on top of (Z | W). Its upper left and lower
    right 64 × 4 corners are W, the two others Z.
  * The bias doubled, (b, b), as a 1 × 8 row.
-/
import proofs.«106057_j35828617183845_2_alg».proof.Proof.Gen.KernelIdeal
import proofs.«106057_j35828617183845_2_alg».proof.Proof.MaxoutSpec
import Idealize.ShloMosaic.Lib.Pipeline.Value
import Idealize.ShloMosaic.Lib.ValueIdx
import Idealize.ShloMosaic.Lib.ValueLayout

noncomputable section

namespace Cert.KernelIdeal.Layout

open Cert.KernelIdeal Cert.KernelIdeal.Gen
open Idealize.ShloMosaic Idealize.ShloMosaic.ValueIdx

variable {α : Type}

/-! ## Packed rows -/

/-- Entry (J, k) of the packed view is the input's entry (n, h, w, κ) at the same row-major position. -/
theorem packed_entry (x : S8x256x256x64.Idx → α) (h1 : S8x256x256x64.ShapeCasts S524288x64)
    (h2 : S524288x64.ShapeCasts S262144x128) (J : Fin 262144) (k : Fin 128) (n : Fin 8) (h : Fin 256) (w : Fin 256) (κ : Fin 64)
    (e : ((n.val * 256 + h.val) * 256 + w.val) * 64 + κ.val = J.val * 128 + k.val) :
    shapeCast S262144x128 (shapeCast S524288x64 x h1) h2 (ix2 J k) = x (ix4 n h w κ) := by
  have hn := n.isLt; have hh := h.isLt; have hw := w.isLt
  refine (shapeCast_apply _ h2 (ix2 J k) (ix2 (⟨(n.val * 256 + h.val) * 256 + w.val, by omega⟩ : Fin 524288) κ) ?_).trans ?_
  · rw [Shape.rowMajor_val_two, Shape.rowMajor_val_two]
    show ((n.val * 256 + h.val) * 256 + w.val) * 64 + κ.val = J.val * 128 + k.val
    exact e
  · refine shapeCast_apply x h1 _ (ix4 n h w κ) ?_
    rw [Shape.rowMajor_val_four, Shape.rowMajor_val_two]
    rfl

/-- The other way: entry (n, h, w, c) of the array that a 262144 × 128 array becomes when it is viewed as 524288 rows of
    64 and then as [8, 256, 256, 64] is the packed array's entry at the same row-major position. -/
theorem unpacked_entry (y : S262144x128.Idx → α) (h1 : S262144x128.ShapeCasts S524288x64)
    (h2 : S524288x64.ShapeCasts S8x256x256x64) (n : Fin 8) (h : Fin 256) (w : Fin 256) (c : Fin 64) (J : Fin 262144) (q : Fin 128)
    (e : ((n.val * 256 + h.val) * 256 + w.val) * 64 + c.val = J.val * 128 + q.val) :
    shapeCast S8x256x256x64 (shapeCast S524288x64 y h1) h2 (ix4 n h w c) = y (ix2 J q) := by
  have hn := n.isLt; have hh := h.isLt; have hw := w.isLt
  refine (shapeCast_apply _ h2 (ix4 n h w c) (ix2 (⟨(n.val * 256 + h.val) * 256 + w.val, by omega⟩ : Fin 524288) c) ?_).trans ?_
  · rw [Shape.rowMajor_val_four, Shape.rowMajor_val_two]
    rfl
  · refine shapeCast_apply y h1 _ (ix2 J q) ?_
    rw [Shape.rowMajor_val_two, Shape.rowMajor_val_two]
    show J.val * 128 + q.val = ((n.val * 256 + h.val) * 256 + w.val) * 64 + c.val
    exact e.symm

/-! ## The block-diagonal matrix -/

/-- (W | Z) on top of (Z | W). -/
abbrev blockDiag (W Z : S64x4.Idx → α) (hc1 : Shape.Concatenates [S64x4, S64x4] S64x8 1)
    (hc0 : Shape.Concatenates [S64x8, S64x8] S128x8 0) : S128x8.Idx → α :=
  concatenate S128x8 0 [⟨S64x8, concatenate S64x8 1 [⟨S64x4, W⟩, ⟨S64x4, Z⟩] hc1⟩,
    ⟨S64x8, concatenate S64x8 1 [⟨S64x4, Z⟩, ⟨S64x4, W⟩] hc1⟩] hc0

theorem blockDiag_upper_left (W Z : S64x4.Idx → α) (hc1 : Shape.Concatenates [S64x4, S64x4] S64x8 1)
    (hc0 : Shape.Concatenates [S64x8, S64x8] S128x8 0) (k : Fin 64) (f : Fin 4) :
    blockDiag W Z hc1 hc0 (ix2 (⟨k.val, by have := k.isLt; omega⟩ : Fin 128) (Cert.Maxout.col 0 (by decide) f)) = W (ix2 k f) := by
  refine (concatenate_pair_apply_left (t := S128x8) (s₁ := S64x8) (s₂ := S64x8) (0 : Fin 2) _ _ hc0 _ rfl (ix2 k (Cert.Maxout.col 0 (by decide) f)) (fun b => ?_)).trans ?_
  · match b with
    | ⟨0, _⟩ => rfl
    | ⟨1, _⟩ => rfl
  · refine concatenate_pair_apply_left (t := S64x8) (s₁ := S64x4) (s₂ := S64x4) (1 : Fin 2) W Z hc1 _ rfl (ix2 k f) (fun b => ?_)
    match b with
    | ⟨0, _⟩ => rfl
    | ⟨1, _⟩ => show f.val = 0 + f.val; omega

theorem blockDiag_upper_right (W Z : S64x4.Idx → α) (hc1 : Shape.Concatenates [S64x4, S64x4] S64x8 1)
    (hc0 : Shape.Concatenates [S64x8, S64x8] S128x8 0) (k : Fin 64) (f : Fin 4) :
    blockDiag W Z hc1 hc0 (ix2 (⟨k.val, by have := k.isLt; omega⟩ : Fin 128) (Cert.Maxout.col 4 (by decide) f)) = Z (ix2 k f) := by
  refine (concatenate_pair_apply_left (t := S128x8) (s₁ := S64x8) (s₂ := S64x8) (0 : Fin 2) _ _ hc0 _ rfl (ix2 k (Cert.Maxout.col 4 (by decide) f)) (fun b => ?_)).trans ?_
  · match b with
    | ⟨0, _⟩ => rfl
    | ⟨1, _⟩ => rfl
  · refine concatenate_pair_apply_right (t := S64x8) (s₁ := S64x4) (s₂ := S64x4) (1 : Fin 2) W Z hc1 _ rfl rfl (ix2 k f) (fun b hb => ?_) ?_
    · match b with
      | ⟨0, _⟩ => rfl
      | ⟨1, _⟩ => exact absurd rfl hb
    · show f.val + 4 = 4 + f.val
      omega

theorem blockDiag_lower_left (W Z : S64x4.Idx → α) (hc1 : Shape.Concatenates [S64x4, S64x4] S64x8 1)
    (hc0 : Shape.Concatenates [S64x8, S64x8] S128x8 0) (k : Fin 64) (f : Fin 4) :
    blockDiag W Z hc1 hc0 (ix2 (⟨64 + k.val, by have := k.isLt; omega⟩ : Fin 128) (Cert.Maxout.col 0 (by decide) f)) = Z (ix2 k f) := by
  refine (concatenate_pair_apply_right (t := S128x8) (s₁ := S64x8) (s₂ := S64x8) (0 : Fin 2) _ _ hc0 _ rfl rfl (ix2 k (Cert.Maxout.col 0 (by decide) f)) (fun b hb => ?_) ?_).trans ?_
  · match b with
    | ⟨0, _⟩ => exact absurd rfl hb
    | ⟨1, _⟩ => rfl
  · show k.val + 64 = 64 + k.val
    omega
  · refine concatenate_pair_apply_left (t := S64x8) (s₁ := S64x4) (s₂ := S64x4) (1 : Fin 2) Z W hc1 _ rfl (ix2 k f) (fun b => ?_)
    match b with
    | ⟨0, _⟩ => rfl
    | ⟨1, _⟩ => show f.val = 0 + f.val; omega

theorem blockDiag_lower_right (W Z : S64x4.Idx → α) (hc1 : Shape.Concatenates [S64x4, S64x4] S64x8 1)
    (hc0 : Shape.Concatenates [S64x8, S64x8] S128x8 0) (k : Fin 64) (f : Fin 4) :
    blockDiag W Z hc1 hc0 (ix2 (⟨64 + k.val, by have := k.isLt; omega⟩ : Fin 128) (Cert.Maxout.col 4 (by decide) f)) = W (ix2 k f) := by
  refine (concatenate_pair_apply_right (t := S128x8) (s₁ := S64x8) (s₂ := S64x8) (0 : Fin 2) _ _ hc0 _ rfl rfl (ix2 k (Cert.Maxout.col 4 (by decide) f)) (fun b hb => ?_) ?_).trans ?_
  · match b with
    | ⟨0, _⟩ => exact absurd rfl hb
    | ⟨1, _⟩ => rfl
  · show k.val + 64 = 64 + k.val
    omega
  · refine concatenate_pair_apply_right (t := S64x8) (s₁ := S64x4) (s₂ := S64x4) (1 : Fin 2) Z W hc1 _ rfl rfl (ix2 k f) (fun b hb => ?_) ?_
    · match b with
      | ⟨0, _⟩ => rfl
      | ⟨1, _⟩ => exact absurd rfl hb
    · show f.val + 4 = 4 + f.val
      omega

/-- The zero matrix: the scalar zero spread over 64 × 4 is the extended real 0 at every entry. -/
theorem zeros_entry (hb : S_.BroadcastsInDim S64x4 (![] : Fin 0 → Fin S64x4.rank)) (i : S64x4.Idx) :
    broadcastInDim S64x4 ![] hb (constant (F := Ideal) S_ .f32 0x00000000#32) i = (0 : EReal) := by
  refine (broadcastInDim_apply _ hb _ i ix0 (fun a => a.elim0)).trans ?_
  exact Ideal.ofBits_zero_f32

/-! ## The doubled bias -/

theorem bias_low (b : S4.Idx → α) (hc : Shape.Concatenates [S4, S4] S8 0) (hs : S8.ShapeCasts S1x8) (f : Fin 4) :
    shapeCast S1x8 (concatenate S8 0 [⟨S4, b⟩, ⟨S4, b⟩] hc) hs (ix2 (0 : Fin 1) (Cert.Maxout.col 0 (by decide) f)) = b (ix1 f) := by
  refine (shapeCast_apply _ hs _ (ix1 (Cert.Maxout.col 0 (by decide) f)) ?_).trans ?_
  · rw [Shape.rowMajor_val_one, Shape.rowMajor_val_two]
    show 0 + f.val = 0 * 8 + (0 + f.val)
    omega
  · refine concatenate_pair_apply_left (t := S8) (s₁ := S4) (s₂ := S4) (0 : Fin 1) b b hc _ rfl (ix1 f) (fun a => ?_)
    match a with
    | ⟨0, _⟩ => show f.val = 0 + f.val; omega

theorem bias_high (b : S4.Idx → α) (hc : Shape.Concatenates [S4, S4] S8 0) (hs : S8.ShapeCasts S1x8) (f : Fin 4) :
    shapeCast S1x8 (concatenate S8 0 [⟨S4, b⟩, ⟨S4, b⟩] hc) hs (ix2 (0 : Fin 1) (Cert.Maxout.col 4 (by decide) f)) = b (ix1 f) := by
  refine (shapeCast_apply _ hs _ (ix1 (Cert.Maxout.col 4 (by decide) f)) ?_).trans ?_
  · rw [Shape.rowMajor_val_one, Shape.rowMajor_val_two]
    show 4 + f.val = 0 * 8 + (4 + f.val)
    omega
  · refine concatenate_pair_apply_right (t := S8) (s₁ := S4) (s₂ := S4) (0 : Fin 1) b b hc _ rfl rfl (ix1 f) (fun a ha => ?_) ?_
    · match a with
      | ⟨0, _⟩ => exact absurd rfl ha
    · show f.val + 4 = 4 + f.val
      omega

end Cert.KernelIdeal.Layout

end
-- ==== Proof.StagedArrays.lean ====
/-
  The arrays the region is entered with, as terms of the three arguments: the host operations before the call only
  re-lay the input, assemble the block-diagonal matrix from W and zeros (a change of float format is the identity
  here), and double the bias.
-/
import proofs.«106057_j35828617183845_2_alg».proof.Proof.Gen.KernelIdeal.Frame
import proofs.«106057_j35828617183845_2_alg».proof.Proof.PackedLayout
import Idealize.ShloMosaic.Lib.StableHlo.Run

noncomputable section

namespace Cert.KernelIdeal.Staged

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The packed rows: the input flattened and viewed 262144 × 128. -/
theorem rows_eq (c : Dev nD) :
    (V m c main_v1 : S262144x128.Idx → Elt Ideal .f32)
      = shapeCast S262144x128 (shapeCast S524288x64 (m ((c : Thread nD τ).loc main_arg0) : S8x256x256x64.Idx → Elt Ideal .f32)
          shapeCasts_S8x256x256x64_S524288x64) shapeCasts_S524288x64_S262144x128 := by
  show StableHlo.after hostOps0 (fun b => m (c, b)) (Proc.devRef .tc main_v1) = _
  after_results
  rfl

/-- The matrix: (W | 0) on top of (0 | W). -/
theorem weights_eq (c : Dev nD) :
    (V m c main_v6 : S128x8.Idx → Elt Ideal .bf16)
      = Cert.KernelIdeal.Layout.blockDiag (m ((c : Thread nD τ).loc main_arg1) : S64x4.Idx → Elt Ideal .f32)
          (broadcastInDim S64x4 ![] bcast_S_S64x4 (constant (F := Ideal) S_ .f32 0x00000000#32))
          concatenates_S64x4_S64x4_S64x8_d1 concatenates_S64x8_S64x8_S128x8_d0 := by
  show StableHlo.after hostOps0 (fun b => m (c, b)) (Proc.devRef .tc main_v6) = _
  after_results
  rfl

/-- The bias row: (b, b). -/
theorem bias_eq (c : Dev nD) :
    (V m c main_v8 : S1x8.Idx → Elt Ideal .f32)
      = shapeCast S1x8 (concatenate S8 0 [⟨S4, (m ((c : Thread nD τ).loc main_arg2) : S4.Idx → Elt Ideal .f32)⟩,
          ⟨S4, (m ((c : Thread nD τ).loc main_arg2) : S4.Idx → Elt Ideal .f32)⟩] concatenates_S4_S4_S8_d0) shapeCasts_S8_S1x8 := by
  show StableHlo.after hostOps0 (fun b => m (c, b)) (Proc.devRef .tc main_v8) = _
  after_results
  rfl

end Cert.KernelIdeal.Staged

end
-- ==== Proof.KernelValue.lean ====
/-
  The kernel's result as the layer's `G` of its arguments.

  Entry (n, h, w, c) of the result sits, after the two views that follow the call, at packed row J and lane q with
  J · 128 + q = ((n · 256 + h) · 256 + w) · 64 + c. Lanes 0…63 of a packed row belong to the even position 2J, lanes
  64…127 to the odd position 2J + 1, so either way the lane's half of the packed row is the 64-vector x (n, h, w, ·)
  and, the matrix being block diagonal, the value there is maxout of that vector.
-/
import proofs.«106057_j35828617183845_2_alg».proof.Proof.Gen.KernelIdeal.Frame
import proofs.«106057_j35828617183845_2_alg».proof.Proof.PackedBlocks
import proofs.«106057_j35828617183845_2_alg».proof.Proof.StagedArrays
import Idealize.ShloMosaic.Lib.StableHlo.Run

noncomputable section

namespace Cert.KernelIdeal.KValue

open Cert.KernelIdeal Cert.KernelIdeal.Gen Cert.KernelIdeal.Layout Cert.KernelIdeal.Blocks
open Idealize.ShloMosaic Idealize.ShloMosaic.TcCoe Idealize.ShloMosaic.ValueIdx Idealize.SL.Sem Idealize.ShloMosaic.StableHlo

/-- The packed result at (J, q), for arrays laid out as the host operations before the call lay them out: maxout
    of the 64-vector whose row-major positions are the lane's half of packed row J. -/
theorem packedOut_entry (x : S8x256x256x64.Idx → Elt Ideal .f32) (W : S64x4.Idx → Elt Ideal .f32) (b : S4.Idx → Elt Ideal .f32)
    (A1 : S262144x128.Idx → Elt Ideal .f32) (A6 : S128x8.Idx → Elt Ideal .bf16) (A8 : S1x8.Idx → Elt Ideal .f32)
    (h1 : S8x256x256x64.ShapeCasts S524288x64) (h2 : S524288x64.ShapeCasts S262144x128)
    (hbz : S_.BroadcastsInDim S64x4 (![] : Fin 0 → Fin S64x4.rank))
    (hc1 : Shape.Concatenates [S64x4, S64x4] S64x8 1) (hc0 : Shape.Concatenates [S64x8, S64x8] S128x8 0)
    (hc : Shape.Concatenates [S4, S4] S8 0) (hs : S8.ShapeCasts S1x8)
    (e1 : A1 = shapeCast S262144x128 (shapeCast S524288x64 x h1) h2)
    (e6 : A6 = blockDiag W (broadcastInDim S64x4 ![] hbz (constant (F := Ideal) S_ .f32 0x00000000#32)) hc1 hc0)
    (e8 : A8 = shapeCast S1x8 (concatenate S8 0 [⟨S4, b⟩, ⟨S4, b⟩] hc) hs)
    (n : Fin 8) (h : Fin 256) (w : Fin 256) (ch : Fin 64) (J : Fin 262144) (q : Fin 128)
    (e : ((n.val * 256 + h.val) * 256 + w.val) * 64 + ch.val = J.val * 128 + q.val) :
    packedOut A1 A6 A8 (ix2 J q) = Cert.Maxout.maxout (fun k => x (ix4 n h w k)) W b := by
  subst e1 e6 e8
  have hch := ch.isLt
  have hq128 := q.isLt
  rw [packedOut_apply]
  unfold Cert.Maxout.packedRow
  by_cases hq : q.val < 64
  · rw [if_pos hq]
    refine Cert.Maxout.packedHalf_low _ _ _ (fun k => x (ix4 n h w k)) W b (fun k => ?_) (fun k f => ?_) (fun k f => ?_) (fun f => ?_)
    · have hk := k.isLt
      exact packed_entry x h1 h2 J ⟨k.val, by omega⟩ n h w k (by show _ = J.val * 128 + k.val; omega)
    · exact blockDiag_upper_left W _ hc1 hc0 k f
    · exact (blockDiag_lower_left W _ hc1 hc0 k f).trans (zeros_entry hbz _)
    · exact bias_low b hc hs f
  · rw [if_neg hq]
    refine Cert.Maxout.packedHalf_high _ _ _ (fun k => x (ix4 n h w k)) W b (fun k => ?_) (fun k f => ?_) (fun k f => ?_) (fun f => ?_)
    · have hk := k.isLt
      exact packed_entry x h1 h2 J ⟨64 + k.val, by omega⟩ n h w k (by show _ = J.val * 128 + (64 + k.val); omega)
    · exact blockDiag_lower_right W _ hc1 hc0 k f
    · exact (blockDiag_upper_right W _ hc1 hc0 k f).trans (zeros_entry hbz _)
    · exact bias_high b hc hs f

variable (m : (ℓ : Loc nD τ sig) → Buf (Elt Ideal) ℓ) (ρ : Dev nD → PrngReg)

/-- The two views after the call re-lay the result array. -/
theorem tail_eq (c : Dev nD) :
    (Pipeline.afterTail₀ cfgs (dats m) 0 (V0 m) [hostOps1] c main_v11 : S8x256x256x64.Idx → Elt Ideal .f32)
      = shapeCast S8x256x256x64 (shapeCast S524288x64 ((dats m 0 c).arrAt 3 cfg0.N : S262144x128.Idx → Elt Ideal .f32)
          shapeCasts_S262144x128_S524288x64) shapeCasts_S524288x64_S8x256x256x64 := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.tc.devRef main_v9)
      = (dats m 0 c).arrAt 3 cfg0.N :=
    Pipeline.withArrays_arr spec0 launch0.win.arr_inj c _ _ 3
  rw [hw]
  rfl

/-- THE KERNEL'S RESULT: the layer's `G` of the three arguments as launched. -/
theorem result_eq (c : Dev nD) :
    (Pipeline.afterTail₀ cfgs (dats m) 0 (V0 m) [hostOps1] c main_v11 : S8x256x256x64.Idx → Elt Ideal .f32)
      = Cert.Maxout.G (m ((c : Thread nD τ).loc main_arg0)) (m ((c : Thread nD τ).loc main_arg1)) (m ((c : Thread nD τ).loc main_arg2)) := by
  rw [tail_eq, Cert.KernelIdeal.Blocks.final]
  funext i
  obtain ⟨n, h, w, ch, rfl⟩ : ∃ (n : Fin 8) (h : Fin 256) (w : Fin 256) (ch : Fin 64), i = ix4 n h w ch :=
    ⟨i 0, i 1, i 2, i 3, eq_ix4 i⟩
  have hn := n.isLt; have hh := h.isLt; have hw := w.isLt; have hch := ch.isLt
  refine (unpacked_entry _ shapeCasts_S262144x128_S524288x64 shapeCasts_S524288x64_S8x256x256x64 n h w ch
    (⟨((n.val * 256 + h.val) * 256 + w.val) / 2, by omega⟩ : Fin 262144)
    (⟨((n.val * 256 + h.val) * 256 + w.val) % 2 * 64 + ch.val, by omega⟩ : Fin 128)
    (by show _ = ((n.val * 256 + h.val) * 256 + w.val) / 2 * 128 + (((n.val * 256 + h.val) * 256 + w.val) % 2 * 64 + ch.val); omega)).trans ?_
  exact packedOut_entry (m ((c : Thread nD τ).loc main_arg0)) (m ((c : Thread nD τ).loc main_arg1)) (m ((c : Thread nD τ).loc main_arg2))
    (V m c main_v1) (V m c main_v6) (V m c main_v8) shapeCasts_S8x256x256x64_S524288x64 shapeCasts_S524288x64_S262144x128
    bcast_S_S64x4 concatenates_S64x4_S64x4_S64x8_d1 concatenates_S64x8_S64x8_S128x8_d0 concatenates_S4_S4_S8_d0 shapeCasts_S8_S1x8
    (Cert.KernelIdeal.Staged.rows_eq m c) (Cert.KernelIdeal.Staged.weights_eq m c) (Cert.KernelIdeal.Staged.bias_eq m c)
    n h w ch _ _
    (by show _ = ((n.val * 256 + h.val) * 256 + w.val) / 2 * 128 + (((n.val * 256 + h.val) * 256 + w.val) % 2 * 64 + ch.val); omega)

/-- The run, read: every weakly fair execution ends with the result buffer at `G` of the arguments and the
    arguments unchanged. -/
theorem run : θ_run defs (onTc (τ := τ) (main (F := Ideal))) ⟨m, fun _ => 0, ρ⟩ fun r => ∀ c : Dev nD,
      r.2.mem ((c.tc : Thread nD τ).loc main_v11)
        = Cert.Maxout.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.lean ====
/-
  The kernel and its reference compute one function on the extended reals.

  The layer: a 1 × 1 convolution with four filters on [8, 256, 256, 64], a rectifier, the largest of the four
  responses, repeated along 64 channels — at (n, h, w, c) the value maxout (x (n, h, w, ·)) = max_f max (Σ_k x_k W_kf + b_f, 0)
  (Proof/MaxoutSpec.lean, `G`). The reference computes it as written (Proof/ReferenceMaxout.lean). The kernel packs
  two consecutive 64-vectors into one 128-row and multiplies by the block-diagonal matrix (W | 0) over (0 | W); each
  half of the product sees its own vector only, because the other half meets zeros and v · 0 = 0 for every extended
  real v (Proof/MaxoutSpec.lean, `packedHalf_low`, `packedHalf_high`); the two maxima are written to the two halves
  of the row, and the views after the call put every row back at its position (Proof/KernelValue.lean). A change of
  float format is the identity here, and no finiteness of the inputs is needed: the precondition is never opened.

  The three frames: the two kernels' from their generated frame certificates, the reference's from its generated run.
  Nothing was rewritten when the kernel was idealized, so that conjunct is `True`.
-/
import proofs.«106057_j35828617183845_2_alg».proof.Defs
import proofs.«106057_j35828617183845_2_alg».proof.Proof.Gen.Kernel
import proofs.«106057_j35828617183845_2_alg».proof.Proof.Gen.Kernel.Skeleton
import proofs.«106057_j35828617183845_2_alg».proof.Proof.Gen.Kernel.Launch
import proofs.«106057_j35828617183845_2_alg».proof.Proof.Gen.Kernel.Points
import proofs.«106057_j35828617183845_2_alg».proof.Proof.Gen.Kernel.Frame
import proofs.«106057_j35828617183845_2_alg».proof.Proof.Gen.KernelIdeal
import proofs.«106057_j35828617183845_2_alg».proof.Proof.Gen.KernelIdeal.Skeleton
import proofs.«106057_j35828617183845_2_alg».proof.Proof.Gen.KernelIdeal.Launch
import proofs.«106057_j35828617183845_2_alg».proof.Proof.Gen.KernelIdeal.Points
import proofs.«106057_j35828617183845_2_alg».proof.Proof.Gen.KernelIdeal.Frame
import proofs.«106057_j35828617183845_2_alg».proof.Proof.Gen.ReferenceIdeal
import proofs.«106057_j35828617183845_2_alg».proof.Proof.Gen.ReferenceIdeal.Run
import proofs.«106057_j35828617183845_2_alg».proof.Proof.Gen.ReferenceIdeal.Read
import proofs.«106057_j35828617183845_2_alg».proof.Proof.Gen.Pre_finite_inputs
import proofs.«106057_j35828617183845_2_alg».proof.Proof.ReferenceMaxout
import proofs.«106057_j35828617183845_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's `G` of the arguments in their result buffers: the kernel by its run read through
    the packed layout, the reference by its run read operation by operation; the arguments agree, so the results do. -/
theorem algebraic : Cert.algebraic_KernelIdeal_ReferenceIdeal := by
  intro m ρ m' ρ' _ hagree
  refine ⟨fun c => Cert.Maxout.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
